-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512x40 : Shape := ⟨4, ![8, 256, 512, 40]⟩
abbrev S8x256x512x4 : Shape := ⟨4, ![8, 256, 512, 4]⟩
abbrev S_ : Shape := ⟨0, ![]⟩

class Facts : Prop where
  bcast_S_S8x256x512x40 : S_.BroadcastsInDim S8x256x512x40 (![] : Fin 0 → Fin S8x256x512x40.rank)
  reducesTo_S8x256x512x40_S_d0_1_2_3 : S8x256x512x40.ReducesTo [0, 1, 2, 3] S_
  h_S_ : 0 < S_.numel
  bcast_S_S8x256x512x4 : S_.BroadcastsInDim S8x256x512x4 (![] : Fin 0 → Fin S8x256x512x4.rank)
  reducesTo_S8x256x512x4_S_d0_1_2_3 : S8x256x512x4.ReducesTo [0, 1, 2, 3] S_

variable [Facts]

def fn {F : FTy → Type} [FloatOps F] (main_arg0 : FVec F S8x256x512x40 .f32) (main_arg1 : FVec F S8x256x512x4 .f32) : IVec S_ 1 :=
  let main_v0 : FVec F S8x256x512x40 .f32 := Host.absf main_arg0
  let main_cst : FVec F S_ .f32 := constant S_ .f32 0x7F800000#32
  let main_v1 : FVec F S8x256x512x40 .f32 := broadcastInDim S8x256x512x40 ![] bcast_S_S8x256x512x40 main_cst
  let main_v2 : IVec S8x256x512x40 1 := cmpf .olt main_v0 main_v1
  let main_c : IVec S_ 1 := constantI S_ 1 1#1
  let main_v3 : IVec S_ 1 := (fun x v => Host.reduce IntOp.andi x v reducesTo_S8x256x512x40_S_d0_1_2_3 h_S_) main_v2 main_c
  let main_v4 : FVec F S8x256x512x4 .f32 := Host.absf main_arg1
  let main_cst_0 : FVec F S_ .f32 := constant S_ .f32 0x7F800000#32
  let main_v5 : FVec F S8x256x512x4 .f32 := broadcastInDim S8x256x512x4 ![] bcast_S_S8x256x512x4 main_cst_0
  let main_v6 : IVec S8x256x512x4 1 := cmpf .olt main_v4 main_v5
  let main_c_1 : IVec S_ 1 := constantI S_ 1 1#1
  let main_v7 : IVec S_ 1 := (fun x v => Host.reduce IntOp.andi x v reducesTo_S8x256x512x4_S_d0_1_2_3 h_S_) main_v6 main_c_1
  let main_v8 : IVec S_ 1 := andi main_v3 main_v7
  main_v8
-- ==== Kernel.lean ====
abbrev S8x256x512x40 : Shape := ⟨4, ![8, 256, 512, 40]⟩
abbrev S8x256x512x4 : Shape := ⟨4, ![8, 256, 512, 4]⟩
abbrev S8x131072x40 : Shape := ⟨3, ![8, 131072, 40]⟩
abbrev S8x131072x4 : Shape := ⟨3, ![8, 131072, 4]⟩
abbrev S8x44x44 : Shape := ⟨3, ![8, 44, 44]⟩
abbrev S8x4x4 : Shape := ⟨3, ![8, 4, 4]⟩
abbrev S8x4x40 : Shape := ⟨3, ![8, 4, 40]⟩
abbrev S8x40x40 : Shape := ⟨3, ![8, 40, 40]⟩
abbrev S_ : Shape := ⟨0, ![]⟩
abbrev S1x8192x4 : Shape := ⟨3, ![1, 8192, 4]⟩
abbrev S1x8192x40 : Shape := ⟨3, ![1, 8192, 40]⟩
abbrev S1x44x44 : Shape := ⟨3, ![1, 44, 44]⟩
abbrev S44x44 : Shape := ⟨2, ![44, 44]⟩
abbrev S8192x4 : Shape := ⟨2, ![8192, 4]⟩
abbrev S8192x40 : Shape := ⟨2, ![8192, 40]⟩
abbrev S8192x44 : Shape := ⟨2, ![8192, 44]⟩

abbrev nBuf : Space → Nat
  | .hbm => 23
  | .vmem => 7
  | .smem => 0
  | _ => 0

abbrev bufTy : (tb : Table) → Fin (tcTables nBuf tb) → BufTy
  | .hbm, ⟨0, _⟩ => ⟨S8x256x512x40, .f32⟩
  | .hbm, ⟨1, _⟩ => ⟨S8x256x512x4, .f32⟩
  | .hbm, ⟨2, _⟩ => ⟨S8x131072x40, .f32⟩
  | .hbm, ⟨3, _⟩ => ⟨S8x131072x4, .f32⟩
  | .hbm, ⟨4, _⟩ => ⟨S8x44x44, .f32⟩
  | .hbm, ⟨5, _⟩ => ⟨S8x4x4, .f32⟩
  | .hbm, ⟨6, _⟩ => ⟨S8x4x40, .f32⟩
  | .hbm, ⟨7, _⟩ => ⟨S8x40x40, .f32⟩
  | .hbm, ⟨8, _⟩ => ⟨S8x4x4, .f32⟩
  | .hbm, ⟨9, _⟩ => ⟨S_, .f32⟩
  | .hbm, ⟨10, _⟩ => ⟨S_, .f32⟩
  | .hbm, ⟨11, _⟩ => ⟨S8x4x40, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x40x40, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x8192x4, .f32⟩
  | .local _ .vmem, ⟨1, _⟩ => ⟨S1x8192x4, .f32⟩
  | .local _ .vmem, ⟨2, _⟩ => ⟨S1x8192x40, .f32⟩
  | .local _ .vmem, ⟨3, _⟩ => ⟨S1x8192x40, .f32⟩
  | .local _ .vmem, ⟨4, _⟩ => ⟨S1x44x44, .f32⟩
  | .local _ .vmem, ⟨5, _⟩ => ⟨S1x44x44, .f32⟩
  | .local _ .vmem, ⟨6, _⟩ => ⟨S44x44, .f32⟩
  | _, _ => ⟨S8x256x512x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_cst : Ref sig .tc := ⟨.hbm, 9, rfl⟩
abbrev main_call0_v7 : Ref sig .tc := ⟨.hbm, 10, rfl⟩
abbrev main_call0_v8 : Ref sig .tc := ⟨.hbm, 11, rfl⟩
abbrev main_call0_cst_0 : Ref sig .tc := ⟨.hbm, 12, rfl⟩
abbrev main_call0_v9 : Ref sig .tc := ⟨.hbm, 13, rfl⟩
abbrev main_call0_cst_1 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_cst_2 : Ref sig .tc := ⟨.hbm, 18, rfl⟩
abbrev main_call0_v13 : Ref sig .tc := ⟨.hbm, 19, rfl⟩
abbrev main_call0_v14 : Ref sig .tc := ⟨.hbm, 20, rfl⟩
abbrev main_call0_cst_3 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x44x44 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x256x512x40_S8x131072x40 : S8x256x512x40.ShapeCasts S8x131072x40
  shapeCasts_S8x256x512x4_S8x131072x4 : S8x256x512x4.ShapeCasts S8x131072x4
  slices_S8x44x44_S8x4x4_0_0_0 : S8x44x44.Slices ![0, 0, 0] S8x4x4
  slices_S8x44x44_S8x4x40_0_0_4 : S8x44x44.Slices ![0, 0, 4] S8x4x40
  slices_S8x44x44_S8x40x40_0_4_4 : S8x44x44.Slices ![0, 4, 4] S8x40x40
  reducesTo_S8x4x4_S_d0_1_2 : S8x4x4.ReducesTo [0, 1, 2] S_
  h_S_ : 0 < S_.numel
  reducesTo_S8x4x40_S_d0_1_2 : S8x4x40.ReducesTo [0, 1, 2] S_
  reducesTo_S8x40x40_S_d0_1_2 : S8x40x40.ReducesTo [0, 1, 2] S_
  inb_S44x44_S44x44_0_0 : ∀ a, (![0, 0] : Fin 2 → Nat) a + S44x44.size a ≤ S44x44.size a
  h_S44x44 : 0 < S44x44.numel
  shapeCasts_S44x44_S44x44 : S44x44.ShapeCasts S44x44
  inb_S1x8192x4_S1x8192x4_0_0_0 : ∀ a, (![0, 0, 0] : Fin 3 → Nat) a + S1x8192x4.size a ≤ S1x8192x4.size a
  h_S1x8192x4 : 0 < S1x8192x4.numel
  shapeCasts_S1x8192x4_S8192x4 : S1x8192x4.ShapeCasts S8192x4
  inb_S1x8192x40_S1x8192x40_0_0_0 : ∀ a, (![0, 0, 0] : Fin 3 → Nat) a + S1x8192x40.size a ≤ S1x8192x40.size a
  h_S1x8192x40 : 0 < S1x8192x40.numel
  shapeCasts_S1x8192x40_S8192x40 : S1x8192x40.ShapeCasts S8192x40
  concatenates_S8192x4_S8192x40_S8192x44_d1 : Shape.Concatenates [S8192x4, S8192x40] S8192x44 1
  bitsLt_bf16_f32 : FTy.bits .bf16 < FTy.bits .f32
  inb_S1x44x44_S1x44x44_0_0_0 : ∀ a, (![0, 0, 0] : Fin 3 → Nat) a + S1x44x44.size a ≤ S1x44x44.size a
  h_S1x44x44 : 0 < S1x44x44.numel
  shapeCasts_S1x44x44_S44x44 : S1x44x44.ShapeCasts S44x44
  shapeCasts_S44x44_S1x44x44 : S44x44.ShapeCasts S1x44x44
  dot_S8192x44_S8192x44_S44x44_0_0_1_1_n_n_wf : DotDims.WF S8192x44 S8192x44 S44x44 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x4.size a ≤ S8x131072x4.size a
  hwx0_0 : ∀ i : grid0.Coords, EltTy.bits .f32 = 32 ∨ (Rect.block (s := S8x131072x4) S1x8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x40.size a ≤ S8x131072x40.size a
  hwx0_1 : ∀ i : grid0.Coords, EltTy.bits .f32 = 32 ∨ (Rect.block (s := S8x131072x40) S1x8192x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x44x44.size a ≤ S8x44x44.size a
  hwx0_2 : ∀ i : grid0.Coords, EltTy.bits .f32 = 32 ∨ (Rect.block (s := S8x44x44) S1x44x44.size (cc0_transform_2 i) (hinb0_2 i)).WholeWords (EltTy.packing .f32)

variable [Facts₀]

def dot_S8192x44_S8192x44_S44x44_0_0_1_1_n_n : DotDims S8192x44 S8192x44 S44x44 where
  lhsContracting := [0]
  rhsContracting := [0]
  lhsNonContracting := [1]
  rhsNonContracting := [1]
  lhsBatch := []
  rhsBatch := []
  wf := dot_S8192x44_S8192x44_S44x44_0_0_1_1_n_n_wf

abbrev win0_0 : Pipeline.Window sig grid0 :=
  Pipeline.Window.ofSpec (Memref.whole main_call0_v1) S1x8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x44x44.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x512x40 : Shape := ⟨4, ![8, 256, 512, 40]⟩
abbrev S8x256x512x4 : Shape := ⟨4, ![8, 256, 512, 4]⟩
abbrev S8x131072x40 : Shape := ⟨3, ![8, 131072, 40]⟩
abbrev S8x131072x4 : Shape := ⟨3, ![8, 131072, 4]⟩
abbrev S8x4x4 : Shape := ⟨3, ![8, 4, 4]⟩
abbrev S8x4x40 : Shape := ⟨3, ![8, 4, 40]⟩
abbrev S8x40x40 : Shape := ⟨3, ![8, 40, 40]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512x40, .f32⟩
  | .hbm, ⟨1, _⟩ => ⟨S8x256x512x4, .f32⟩
  | .hbm, ⟨2, _⟩ => ⟨S8x131072x40, .f32⟩
  | .hbm, ⟨3, _⟩ => ⟨S8x131072x4, .f32⟩
  | .hbm, ⟨4, _⟩ => ⟨S8x4x4, .f32⟩
  | .hbm, ⟨5, _⟩ => ⟨S8x4x40, .f32⟩
  | .hbm, ⟨6, _⟩ => ⟨S8x40x40, .f32⟩
  | .hbm, ⟨7, _⟩ => ⟨S8x4x4, .f32⟩
  | .hbm, ⟨8, _⟩ => ⟨S_, .f32⟩
  | .hbm, ⟨9, _⟩ => ⟨S_, .f32⟩
  | .hbm, ⟨10, _⟩ => ⟨S8x4x40, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x40x40, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S8x256x512x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S8x256x512x40_S8x131072x40 : S8x256x512x40.ShapeCasts S8x131072x40
  shapeCasts_S8x256x512x4_S8x131072x4 : S8x256x512x4.ShapeCasts S8x131072x4
  reducesTo_S8x4x4_S_d0_1_2 : S8x4x4.ReducesTo [0, 1, 2] S_
  h_S_ : 0 < S_.numel
  reducesTo_S8x4x40_S_d0_1_2 : S8x4x40.ReducesTo [0, 1, 2] S_
  reducesTo_S8x40x40_S_d0_1_2 : S8x40x40.ReducesTo [0, 1, 2] S_
  dot_S8x131072x4_S8x131072x4_S8x4x4_1_1_2_2_0_0_wf : DotDims.WF S8x131072x4 S8x131072x4 S8x4x4 [1] [1] [2] [2] [0] [0]
  dot_S8x131072x4_S8x131072x40_S8x4x40_1_1_2_2_0_0_wf : DotDims.WF S8x131072x4 S8x131072x40 S8x4x40 [1] [1] [2] [2] [0] [0]
  dot_S8x131072x40_S8x131072x40_S8x40x40_1_1_2_2_0_0_wf : DotDims.WF S8x131072x40 S8x131072x40 S8x40x40 [1] [1] [2] [2] [0] [0]

variable [Facts₀]

def dot_S8x131072x4_S8x131072x4_S8x4x4_1_1_2_2_0_0 : DotDims S8x131072x4 S8x131072x4 S8x4x4 where
  lhsContracting := [1]
  rhsContracting := [1]
  lhsNonContracting := [2]
  rhsNonContracting := [2]
  lhsBatch := [0]
  rhsBatch := [0]
  wf := dot_S8x131072x4_S8x131072x4_S8x4x4_1_1_2_2_0_0_wf
def dot_S8x131072x4_S8x131072x40_S8x4x40_1_1_2_2_0_0 : DotDims S8x131072x4 S8x131072x40 S8x4x40 where
  lhsContracting := [1]
  rhsContracting := [1]
  lhsNonContracting := [2]
  rhsNonContracting := [2]
  lhsBatch := [0]
  rhsBatch := [0]
  wf := dot_S8x131072x4_S8x131072x40_S8x4x40_1_1_2_2_0_0_wf
def dot_S8x131072x40_S8x131072x40_S8x40x40_1_1_2_2_0_0 : DotDims S8x131072x40 S8x131072x40 S8x40x40 where
  lhsContracting := [1]
  rhsContracting := [1]
  lhsNonContracting := [2]
  rhsNonContracting := [2]
  lhsBatch := [0]
  rhsBatch := [0]
  wf := dot_S8x131072x40_S8x131072x40_S8x40x40_1_1_2_2_0_0_wf

class Facts : Prop extends Facts₀ where

variable [Facts]
-- ==== Proof.CaseValues.lean ====
/-
  What one run of the body leaves behind, in each of its three cases.

  The body's two conditionals depend only on the position k of the grid point within its batch entry's 16 points:
    k = 0        the scratch matrix is first set to zero, then the tile's product is added to it;
    0 < k < 15   the tile's product is added to what the point before left in the scratch matrix;
    k = 15       the same, and then the scratch matrix is copied into the output block.
  In every case the scratch matrix ends holding the body's one sum `carried + product` of the point's two input tiles
  — carried being zero at k = 0 and the previous contents otherwise — and at k = 15 the output block holds that same
  matrix under a leading unit axis.  This holds for any float values: it only reads the stores back.
-/
import proofs.«103243_j24713241821608_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem
open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First point of a batch entry: the scratch matrix ends at zero plus the tile's product. -/
theorem scratch_first (c : Dev nD) (i : grid0.Coords) (arg2 : Memref sig .tc .vmem S1x8192x4 .f32) (harg2 : arg2.IsWhole) (arg3 : Memref sig .tc .vmem S1x8192x40 .f32) (harg3 : arg3.IsWhole) (arg4 : Memref sig .tc .vmem S1x44x44 .f32) (harg4 : arg4.IsWhole) (arg5 : Memref sig .tc .vmem S44x44 .f32) (harg5 : arg5.IsWhole) (hc0 : cond0_0 i) (hc1 : ¬cond0_1 i)
    (x0 : Vec F S1x8192x4 .f32) (x1 : Vec F S1x8192x40 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S44x44) origin2, View.readCov_unit_zero (S := S44x44) _ origin2]
  simp only [View.readAt_eq_ld, harg2.read_unread, harg3.read_unread, View.ld_unit_zero (S := S1x8192x4) origin3,
    View.ld_unit_zero (S := S1x8192x40) origin3]

/-- A middle point: the scratch matrix ends at what it held plus the tile's product. -/
theorem scratch_middle (c : Dev nD) (i : grid0.Coords) (arg2 : Memref sig .tc .vmem S1x8192x4 .f32) (harg2 : arg2.IsWhole) (arg3 : Memref sig .tc .vmem S1x8192x40 .f32) (harg3 : arg3.IsWhole) (arg4 : Memref sig .tc .vmem S1x44x44 .f32) (harg4 : arg4.IsWhole) (arg5 : Memref sig .tc .vmem S44x44 .f32) (harg5 : arg5.IsWhole) (hc0 : ¬cond0_0 i) (hc1 : ¬cond0_1 i)
    (x0 : Vec F S1x8192x4 .f32) (x1 : Vec F S1x8192x40 .f32) (xs0 : Vec F S44x44 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero origin2]
  simp only [View.readAt_eq_ld, harg2.read_unread, harg3.read_unread, harg5.read_unread,
    View.ld_unit_zero (S := S1x8192x4) origin3, View.ld_unit_zero (S := S1x8192x40) origin3,
    View.ld_unit_zero (S := S44x44) origin2]

/-- Last point of a batch entry: the scratch matrix ends at what it held plus the tile's product, -/
theorem scratch_last (c : Dev nD) (i : grid0.Coords) (arg2 : Memref sig .tc .vmem S1x8192x4 .f32) (harg2 : arg2.IsWhole) (arg3 : Memref sig .tc .vmem S1x8192x40 .f32) (harg3 : arg3.IsWhole) (arg4 : Memref sig .tc .vmem S1x44x44 .f32) (harg4 : arg4.IsWhole) (arg5 : Memref sig .tc .vmem S44x44 .f32) (harg5 : arg5.IsWhole) (hc0 : ¬cond0_0 i) (hc1 : cond0_1 i)
    (x0 : Vec F S1x8192x4 .f32) (x1 : Vec F S1x8192x40 .f32) (xs0 : Vec F S44x44 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S1x8192x4) origin3, View.ld_unit_zero (S := S1x8192x40) origin3,
    View.ld_unit_zero (S := S44x44) origin2]

/-- and the output block holds that matrix under a leading unit axis. -/
theorem block_last (c : Dev nD) (i : grid0.Coords) (arg2 : Memref sig .tc .vmem S1x8192x4 .f32) (harg2 : arg2.IsWhole) (arg3 : Memref sig .tc .vmem S1x8192x40 .f32) (harg3 : arg3.IsWhole) (arg4 : Memref sig .tc .vmem S1x44x44 .f32) (harg4 : arg4.IsWhole) (arg5 : Memref sig .tc .vmem S44x44 .f32) (harg5 : arg5.IsWhole) (hc0 : ¬cond0_0 i) (hc1 : cond0_1 i)
    (x0 : Vec F S1x8192x4 .f32) (x1 : Vec F S1x8192x40 .f32) (xs0 : Vec F S44x44 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin3, View.readCov_unit_zero (S := S44x44) _ origin2]
  simp only [View.readAt_eq_ld, harg2.read_unread, harg3.read_unread, harg5.read_unread,
    View.ld_unit_zero (S := S1x8192x4) origin3, View.ld_unit_zero (S := S1x8192x40) origin3,
    View.ld_unit_zero (S := S44x44) origin2]

end Cert.KernelIdeal.Cases

end
-- ==== Proof.TileProduct.lean ====
/-
  One grid point's share of the Gram matrix, read at an entry.

  At a grid point the body holds one tile of assignments v (8192 rows of 4) and one tile of embeddings e (8192 rows
  of 40).  It lays them side by side into the slab w = [v | e] of 8192 rows of 44, multiplies the slab's transpose
  by the slab, and adds the product to what the scratch matrix held.  At the exact values the change of float format
  in front of the product is the identity and the product of the transposed slab with the slab, taken into zero, is
  the plain sum over the tile's rows: the new scratch entry (i, j) is the old one plus the sum over the 8192 rows r of
  w[r, i] * w[r, j].
-/
import proofs.«103243_j24713241821608_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen
open scoped BigOperators

variable (x0 : Vec Ideal S1x8192x4 .f32) (x1 : Vec Ideal S1x8192x40 .f32)

/-- Entry `i` of row `r` of the point's slab [v | e]: an assignment below 4, an embedding from 4 on. -/
def wrow (r : Fin 8192) (i : Fin 44) : EReal :=
  if h : i.val < 4 then x0 (ix3 (0 : Fin 1) r ⟨i.val, h⟩)
  else x1 (ix3 (0 : Fin 1) r ⟨i.val - 4, by have := i.isLt; omega⟩)

/-- The tile of assignments with its leading unit axis dropped, at (r, i). -/
theorem v_apply (r : Fin 8192) (i : Fin 4) :
    shapeCast S8192x4 x0 shapeCasts_S1x8192x4_S8192x4 (ix2 r i) = x0 (ix3 (0 : Fin 1) r i) :=
  shapeCast_apply x0 shapeCasts_S1x8192x4_S8192x4 (ix2 r i) (ix3 (0 : Fin 1) r i) (by
    rw [Shape.rowMajor_val_three, Shape.rowMajor_val_two]
    show ((0 : ℕ) * 8192 + r.val) * 4 + i.val = r.val * 4 + i.val
    omega)

/-- The tile of embeddings with its leading unit axis dropped, at (r, i). -/
theorem e_apply (r : Fin 8192) (i : Fin 40) :
    shapeCast S8192x40 x1 shapeCasts_S1x8192x40_S8192x40 (ix2 r i) = x1 (ix3 (0 : Fin 1) r i) :=
  shapeCast_apply x1 shapeCasts_S1x8192x40_S8192x40 (ix2 r i) (ix3 (0 : Fin 1) r i) (by
    rw [Shape.rowMajor_val_three, Shape.rowMajor_val_two]
    show ((0 : ℕ) * 8192 + r.val) * 40 + i.val = r.val * 40 + i.val
    omega)

/-- The slab the product takes, read at (r, i): the two tiles side by side, the change of format the identity. -/
theorem slab_apply (r : Fin 8192) (i : Fin 44) :
    (truncf .bf16 (concatenate S8192x44 1 [⟨S8192x4, shapeCast S8192x4 x0 shapeCasts_S1x8192x4_S8192x4⟩,
        ⟨S8192x40, shapeCast S8192x40 x1 shapeCasts_S1x8192x40_S8192x40⟩] concatenates_S8192x4_S8192x40_S8192x44_d1)
      bitsLt_bf16_f32 : FVec Ideal S8192x44 .bf16) (ix2 r i) = wrow x0 x1 r i := by
  rw [truncf_apply]
  unfold wrow
  by_cases h : i.val < 4
  · rw [dif_pos h]
    refine (concatenate_pair_apply_left (1 : Fin S8192x44.rank) _ _ concatenates_S8192x4_S8192x40_S8192x44_d1
      (ix2 r i) rfl (ix2 r (⟨i.val, h⟩ : Fin 4)) (fun b => ?_)).trans (v_apply x0 r ⟨i.val, h⟩)
    match b with
    | ⟨0, _⟩ => rfl
    | ⟨1, _⟩ => rfl
  · rw [dif_neg h]
    have hi : i.val - 4 < 40 := by have := i.isLt; omega
    refine (concatenate_pair_apply_right (1 : Fin S8192x44.rank) _ _ concatenates_S8192x4_S8192x40_S8192x44_d1
      (ix2 r i) rfl rfl (ix2 r (⟨i.val - 4, hi⟩ : Fin 40)) (fun b hb => ?_) ?_).trans (e_apply x1 r ⟨i.val - 4, hi⟩)
    · match b with
      | ⟨0, _⟩ => rfl
      | ⟨1, _⟩ => exact absurd rfl hb
    · show (i.val - 4) + 4 = i.val
      omega

/-- The output's row coordinate is the left operand's column: the left operand's free axis. -/
theorem lhs_free (y : S44x44.Idx) (q : dot_S8192x44_S8192x44_S44x44_0_0_1_1_n_n.contr.Idx) :
    (dot_S8192x44_S8192x44_S44x44_0_0_1_1_n_n.lhsIdx y q 1).val = (y 0).val := by
  unfold DotDims.lhsIdx
  rw [dif_neg (show ¬(1 : Fin S8192x44.rank) ∈ dot_S8192x44_S8192x44_S44x44_0_0_1_1_n_n.lhsBatch by decide),
    dif_pos (show (1 : Fin S8192x44.rank) ∈ dot_S8192x44_S8192x44_S44x44_0_0_1_1_n_n.lhsNonContracting by decide)]
  rfl

/-- The output's column coordinate is the right operand's column: the right operand's free axis. -/
theorem rhs_free (y : S44x44.Idx) (q : dot_S8192x44_S8192x44_S44x44_0_0_1_1_n_n.contr.Idx) :
    (dot_S8192x44_S8192x44_S44x44_0_0_1_1_n_n.rhsIdx y q 1).val = (y 1).val := by
  unfold DotDims.rhsIdx
  rw [dif_neg (show ¬(1 : Fin S8192x44.rank) ∈ dot_S8192x44_S8192x44_S44x44_0_0_1_1_n_n.rhsBatch by decide),
    dif_pos (show (1 : Fin S8192x44.rank) ∈ dot_S8192x44_S8192x44_S44x44_0_0_1_1_n_n.rhsNonContracting by decide)]
  rfl

/-- The product of a slab's transpose with the slab, taken into zero, at (i, j): the sum over the slab's rows of the
    products of the row's entries i and j. -/
theorem product_apply (w : FVec Ideal S8192x44 .bf16) (i j : Fin 44) :
    matmul dot_S8192x44_S8192x44_S44x44_0_0_1_1_n_n none w w (constant (F := Ideal) S44x44 .f32 0x00000000#32) (ix2 i j)
      = ∑ r : Fin 8192, w (ix2 r i) * w (ix2 r j) := by
  simp only [matmul]
  rw [Ideal.matmul_constant_zero_apply,
    ← Equiv.sum_comp (contrEquiv1 dot_S8192x44_S8192x44_S44x44_0_0_1_1_n_n 8192 rfl rfl).symm]
  refine Finset.sum_congr rfl fun k _ => ?_
  have hk := contrEquiv1_symm_val dot_S8192x44_S8192x44_S44x44_0_0_1_1_n_n 8192 rfl rfl k
  have el : dot_S8192x44_S8192x44_S44x44_0_0_1_1_n_n.lhsIdx (ix2 i j)
      ((contrEquiv1 dot_S8192x44_S8192x44_S44x44_0_0_1_1_n_n 8192 rfl rfl).symm k) = ix2 k i :=
    funext fun a => Fin.ext (by
      match a with
      | ⟨0, _⟩ => exact (dot_S8192x44_S8192x44_S44x44_0_0_1_1_n_n.lhsIdx_val_of_single rfl _ _).trans hk
      | ⟨1, _⟩ => exact lhs_free _ _)
  have er : dot_S8192x44_S8192x44_S44x44_0_0_1_1_n_n.rhsIdx (ix2 i j)
      ((contrEquiv1 dot_S8192x44_S8192x44_S44x44_0_0_1_1_n_n 8192 rfl rfl).symm k) = ix2 k j :=
    funext fun a => Fin.ext (by
      match a with
      | ⟨0, _⟩ => exact (dot_S8192x44_S8192x44_S44x44_0_0_1_1_n_n.rhsIdx_val_of_single rfl _ _).trans hk
      | ⟨1, _⟩ => exact rhs_free _ _)
  rw [el, er]

/-- What the body stores back into the scratch matrix, at (i, j): the carried entry plus the tile's sum of products. -/
theorem accumulated_apply (acc : Vec Ideal S44x44 .f32) (i j : Fin 44) :
    k0_pay2 x0 x1 acc (ix2 i j) = acc (ix2 i j) + ∑ r : Fin 8192, wrow x0 x1 r i * wrow x0 x1 r j := by
  unfold k0_pay2
  refine (congrFun (shapeCast_self _ shapeCasts_S44x44_S44x44) (ix2 i j)).trans ?_
  refine (addf_apply _ _ (ix2 i j)).trans (congrArg (acc (ix2 i j) + ·) ?_)
  refine (product_apply _ i j).trans (Finset.sum_congr rfl fun r _ => ?_)
  rw [slab_apply x0 x1 r i, slab_apply x0 x1 r j]

/-- The zero matrix the first grid point of a batch entry stores, at any entry. -/
theorem zero_apply (y : S44x44.Idx) : k0_pay1 (F := Ideal) y = 0 := by
  unfold k0_pay1
  refine (congrFun (shapeCast_self _ shapeCasts_S44x44_S44x44) y).trans ?_
  show Ideal.ofBits .f32 0x00000000#32 = 0
  exact Ideal.ofBits_zero_f32

/-- What the last grid point of a batch entry stores into the output block, at (0, i, j): the scratch entry (i, j). -/
theorem block_apply (acc : Vec Ideal S44x44 .f32) (i j : Fin 44) :
    k0_pay3 acc (ix3 (0 : Fin 1) i j) = acc (ix2 i j) := by
  unfold k0_pay3
  exact shapeCast_apply acc shapeCasts_S44x44_S1x44x44 (ix3 (0 : Fin 1) i j) (ix2 i j) (by
    rw [Shape.rowMajor_val_three, Shape.rowMajor_val_two]
    show i.val * 44 + j.val = ((0 : ℕ) * 44 + i.val) * 44 + j.val
    omega)

end Cert.KernelIdeal.Tile

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibBlockedSum.lean ====
/-
  A finite sum accumulated block by block.

  A sum over `N = m · n` indices is taken in `m` consecutive blocks of `n`.  `blockSum hN f s` is the sum of block `s`,
  as a function of every natural number `s` (zero past the last block, which is never read), so that block sums can be
  indexed by a range of naturals — the form in which a run of grid points that accumulate into one resident tile hands
  them back.  The block sums over the range `0 … m - 1` add up to the whole sum, and so do the first `m - 1` of them
  added into zero followed by the last: the shape of an accumulator that is reset to zero, stepped through all blocks but
  the last, and closed by a final step that may add something more afterwards.  Only associativity and commutativity of
  addition are used, so the laws hold in any commutative additive monoid — on the extended reals whatever the summands.
-/
import Mathlib.Algebra.BigOperators.Fin
import Mathlib.Algebra.BigOperators.Intervals
import proofs.«103243_j24713241821608_2_alg».proof.Proof.LibSumBlocks

open scoped BigOperators

namespace Cert.Lib.BlockedSum

variable {β : Type*} [AddCommMonoid β] {m n N : ℕ}

/-- The sum of block `s` of a family over `N = m · n` indices: offsets `0 … n - 1` from `s · n`; zero for `s ≥ m`. -/
def blockSum (hN : m * n = N) (f : Fin N → β) (s : ℕ) : β :=
  if h : s < m then ∑ b : Fin n, f (SumBlocks.idx hN ⟨s, h⟩ b) else 0

/-- Inside the range, a block sum is the sum over the block's offsets. -/
theorem blockSum_of_lt (hN : m * n = N) (f : Fin N → β) (s : ℕ) (hs : s < m) :
    blockSum hN f s = ∑ b : Fin n, f (SumBlocks.idx hN ⟨s, hs⟩ b) := dif_pos hs

/-- The block sums over `0 … m - 1` add up to the whole sum. -/
theorem sum_range_blockSum (hN : m * n = N) (f : Fin N → β) :
    ∑ s ∈ Finset.range m, blockSum hN f s = ∑ k : Fin N, f k := by
  rw [Finset.sum_range, SumBlocks.sum_eq hN f]
  exact Finset.sum_congr rfl fun a _ => blockSum_of_lt hN f a.val a.isLt

/-- All blocks but the last added into zero, then the last block, are the whole sum. -/
theorem accumulated {e : ℕ} (hN : (e + 1) * n = N) (f : Fin N → β) :
    (0 + ∑ s ∈ Finset.range e, blockSum hN f s) + blockSum hN f e = ∑ k : Fin N, f k := by
  rw [zero_add, ← Finset.sum_range_succ, sum_range_blockSum hN f]

end Cert.Lib.BlockedSum
-- ==== Proof.Gram.lean ====
/-
  The fused Gram matrix, as one function of the two reshaped inputs.

  For each batch entry b the assignments V_b (N rows of 4) and the embeddings E_b (N rows of 40), N = 131072, are
  laid side by side into one slab W_b = [V_b | E_b] of N rows of 44 entries; the Gram matrix of the slab is
      G_b[i, j] = sum over the N rows n of W_b[n, i] * W_b[n, j].
  Its corner blocks are the three products the loss is made of: rows and columns below 4 give V_b^T V_b, rows below 4
  against columns from 4 on give V_b^T E_b, rows and columns from 4 on give E_b^T E_b.  The N rows are taken in 16
  consecutive tiles of 8192; `tileSum` is one tile's share of an entry, and the 16 shares add up to the entry.  Nothing
  here uses more than the associativity and commutativity of addition, so it holds on the extended reals whatever the
  entries are.
-/
import Idealize.ShloMosaic.PureOps.Ideal
import Idealize.ShloMosaic.Lib.ValueIdx
import proofs.«103243_j24713241821608_2_alg».proof.Proof.LibBlockedSum

noncomputable section

namespace Cert.Gram

open Idealize.ShloMosaic Idealize.ShloMosaic.ValueIdx
open scoped BigOperators

/-- The shapes of the reshaped assignments, the reshaped embeddings and the fused Gram matrices. -/
abbrev SV : Shape := ⟨3, ![8, 131072, 4]⟩
abbrev SE : Shape := ⟨3, ![8, 131072, 40]⟩
abbrev SG : Shape := ⟨3, ![8, 44, 44]⟩

/-- Sixteen tiles of 8192 rows are the 131072 rows. -/
theorem tiles_rows : 16 * 8192 = 131072 := by norm_num

variable (V : SV.Idx → EReal) (E : SE.Idx → EReal)

/-- Entry `i` of row `n` of batch entry `b`'s slab: an assignment below 4, an embedding from 4 on. -/
def slab (b : Fin 8) (n : Fin 131072) (i : Fin 44) : EReal :=
  if h : i.val < 4 then V (ix3 b n ⟨i.val, h⟩) else E (ix3 b n ⟨i.val - 4, by have := i.isLt; omega⟩)

/-- A slab entry below 4 is an assignment. -/
theorem slab_lt (b : Fin 8) (n : Fin 131072) (i : Fin 44) (h : i.val < 4) : slab V E b n i = V (ix3 b n ⟨i.val, h⟩) :=
  dif_pos h

/-- A slab entry from 4 on is an embedding. -/
theorem slab_ge (b : Fin 8) (n : Fin 131072) (i : Fin 44) (h : ¬ i.val < 4) :
    slab V E b n i = E (ix3 b n ⟨i.val - 4, by have := i.isLt; omega⟩) :=
  dif_neg h

/-- One row's share of entry (i, j) of batch entry `b`'s Gram matrix. -/
def term (b : Fin 8) (i j : Fin 44) (n : Fin 131072) : EReal := slab V E b n i * slab V E b n j

/-- Entry (i, j) of batch entry `b`'s Gram matrix: the sum over all rows. -/
def entry (b : Fin 8) (i j : Fin 44) : EReal := ∑ n : Fin 131072, term V E b i j n

/-- The fused Gram matrices as one array. -/
def gram : SG.Idx → EReal := fun y => entry V E (y 0) (y 1) (y 2)

theorem gram_apply (b : Fin 8) (i j : Fin 44) : gram V E (ix3 b i j) = entry V E b i j := rfl

/-- The array read at an index whose coordinates are (b, i, j). -/
theorem gram_of_coords (z : SG.Idx) (b : Fin 8) (i j : Fin 44) (h0 : (z 0).val = b.val) (h1 : (z 1).val = i.val)
    (h2 : (z 2).val = j.val) : gram V E z = entry V E b i j := by
  obtain rfl : z = ix3 b i j := funext fun a => Fin.ext (by
    match a with
    | ⟨0, _⟩ => exact h0
    | ⟨1, _⟩ => exact h1
    | ⟨2, _⟩ => exact h2)
  rfl

/-- Tile `s`'s share of entry (i, j): the sum over the tile's 8192 rows (zero past the last tile). -/
def tileSum (b : Fin 8) (i j : Fin 44) (s : ℕ) : EReal := Cert.Lib.BlockedSum.blockSum tiles_rows (term V E b i j) s

/-- Inside the range a tile's share is the sum over its rows `s * 8192 + r`. -/
theorem tileSum_of_lt (b : Fin 8) (i j : Fin 44) (s : ℕ) (hs : s < 16) :
    tileSum V E b i j s = ∑ r : Fin 8192, term V E b i j (SumBlocks.idx tiles_rows ⟨s, hs⟩ r) :=
  Cert.Lib.BlockedSum.blockSum_of_lt tiles_rows _ s hs

/-- The sixteen tiles' shares add up to the entry. -/
theorem sum_tileSum (b : Fin 8) (i j : Fin 44) : ∑ s ∈ Finset.range 16, tileSum V E b i j s = entry V E b i j :=
  Cert.Lib.BlockedSum.sum_range_blockSum tiles_rows _

end Cert.Gram

end
-- ==== Proof.TileShare.lean ====
/-
  A grid point's product is one tile's share of the batch entry's Gram matrix.

  When the point's tile of assignments is rows s * 8192 + r (r below 8192) of batch entry b's assignments, and its tile
  of embeddings the same rows of b's embeddings, the point's slab is those rows of b's slab; so the sum over the tile's
  rows that the body adds to the scratch matrix is tile s's share of entry (i, j) of b's Gram matrix, and one run of
  the body takes the scratch entry from `carried` to `carried + share of tile s`.
-/
import proofs.«103243_j24713241821608_2_alg».proof.Proof.TileProduct
import proofs.«103243_j24713241821608_2_alg».proof.Proof.Gram

noncomputable section

namespace Cert.KernelIdeal.Tile

open Idealize.ShloMosaic Idealize.ShloMosaic.ValueIdx Cert.KernelIdeal Cert.KernelIdeal.Gen Cert.Gram
open scoped BigOperators

variable (V : SV.Idx → EReal) (E : SE.Idx → EReal)
  (x0 : Vec Ideal S1x8192x4 .f32) (x1 : Vec Ideal S1x8192x40 .f32) (b : Fin 8) (s : Fin 16)
  (h0 : ∀ (r : Fin 8192) (i : Fin 4), x0 (ix3 (0 : Fin 1) r i) = V (ix3 b (SumBlocks.idx tiles_rows s r) i))
  (h1 : ∀ (r : Fin 8192) (i : Fin 40), x1 (ix3 (0 : Fin 1) r i) = E (ix3 b (SumBlocks.idx tiles_rows s r) i))

include h0 h1 in
/-- Row r of the point's slab is row s * 8192 + r of the batch entry's slab. -/
theorem wrow_eq_slab (r : Fin 8192) (i : Fin 44) :
    wrow x0 x1 r i = slab V E b (SumBlocks.idx tiles_rows s r) i := by
  unfold wrow slab
  by_cases h : i.val < 4
  · rw [dif_pos h, dif_pos h]; exact h0 r _
  · rw [dif_neg h, dif_neg h]; exact h1 r _

include h0 h1 in
/-- The point's sum of products is tile s's share of the Gram entry. -/
theorem share_eq (i j : Fin 44) :
    ∑ r : Fin 8192, wrow x0 x1 r i * wrow x0 x1 r j = tileSum V E b i j s.val := by
  rw [tileSum_of_lt V E b i j s.val s.isLt]
  refine Finset.sum_congr rfl fun r _ => ?_
  rw [wrow_eq_slab V E x0 x1 b s h0 h1 r i, wrow_eq_slab V E x0 x1 b s h0 h1 r j]
  rfl

include h0 h1 in
/-- One run of the body takes the scratch entry (i, j) from the carried value to that plus tile s's share. -/
theorem step_apply (acc : Vec Ideal S44x44 .f32) (i j : Fin 44) :
    k0_pay2 x0 x1 acc (ix2 i j) = acc (ix2 i j) + tileSum V E b i j s.val := by
  rw [accumulated_apply x0 x1 acc i j, share_eq V E x0 x1 b s h0 h1 i j]

end Cert.KernelIdeal.Tile

end
-- ==== Proof.Accumulate.lean ====
/-
  The scratch matrix, point by point, and the block a batch entry's last point writes out.

  The grid's 128 points run batch entry by batch entry: point t works on batch entry t / 16 and on tile t % 16 of its
  rows.  The first point of a batch entry resets the scratch matrix, so after point t the scratch entry (i, j) is the
  sum of the shares of tiles 0 … t % 16 of entry (i, j) of that batch entry's Gram matrix — by induction on the
  point.  At the last point of a batch entry (t % 16 = 15) all sixteen shares are in, the scratch matrix is the batch
  entry's Gram matrix, and that is what the point stores into the output block.
-/
import proofs.«103243_j24713241821608_2_alg».proof.Proof.CaseValues
import proofs.«103243_j24713241821608_2_alg».proof.Proof.TileShare

noncomputable section

namespace Cert.KernelIdeal.Acc

open Idealize.ShloMosaic Idealize.ShloMosaic.TcCoe Idealize.ShloMosaic.ValueIdx Idealize.SL.Sem
open Cert.KernelIdeal Cert.KernelIdeal.Gen Cert.Gram
open scoped BigOperators

variable (m : (ℓ : Loc nD τ sig) → Buf (Elt Ideal) ℓ)

/-- The reshaped assignments and the reshaped embeddings, as the region finds them. -/
abbrev Vr (c : Dev nD) : SV.Idx → EReal := V m c main_call0_v1
abbrev Er (c : Dev nD) : SE.Idx → EReal := V m c main_call0_v0

theorem lt128 (t : Fin cfg0.N) : t.val < 128 := lt_of_lt_of_eq t.isLt (show cfg0.N = 128 from N_0)

/-- The batch entry and the tile a grid point works on. -/
def batchOf (t : Fin cfg0.N) : Fin 8 := ⟨t.val / 16, by have := lt128 t; omega⟩
def tileOf (t : Fin cfg0.N) : Fin 16 := ⟨t.val % 16, Nat.mod_lt _ (by norm_num)⟩

/-- The printed index maps of the two input windows, decided over the grid: batch entry t / 16, tile t % 16. -/
theorem index0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem index1 : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

/-- The point's tile of assignments is rows (t % 16) * 8192 + r of batch entry t / 16. -/
theorem tile0_apply (c : Dev nD) (t : Fin cfg0.N) (r : Fin 8192) (i : Fin 4) :
    (iblk m c 0 t : Vec Ideal S1x8192x4 .f32) (ix3 (0 : Fin 1) r i)
      = Vr m c (ix3 (batchOf t) (SumBlocks.idx tiles_rows (tileOf t) r) i) := by
  obtain ⟨e0, e1, e2⟩ := index0 t
  unfold iblk
  rw [View.read_apply]
  show V m c main_call0_v1 (((cfg0.win 0).blk t).view.emb (ix3 (0 : Fin 1) r i)) = V m c main_call0_v1 _
  refine congrArg (V m c main_call0_v1) (funext fun a => Fin.ext ?_)
  match a with
  | ⟨0, _⟩ => show win0_0.index t (0 : Fin 3) * 1 + 1 * 0 = t.val / 16; omega
  | ⟨1, _⟩ => show win0_0.index t (1 : Fin 3) * 8192 + 1 * r.val = t.val % 16 * 8192 + r.val; omega
  | ⟨2, _⟩ => show win0_0.index t (2 : Fin 3) * 4 + 1 * i.val = i.val; omega

/-- The point's tile of embeddings is the same rows of the batch entry's embeddings. -/
theorem tile1_apply (c : Dev nD) (t : Fin cfg0.N) (r : Fin 8192) (i : Fin 40) :
    (iblk m c 1 t : Vec Ideal S1x8192x40 .f32) (ix3 (0 : Fin 1) r i)
      = Er m c (ix3 (batchOf t) (SumBlocks.idx tiles_rows (tileOf t) r) i) := by
  obtain ⟨e0, e1, e2⟩ := index1 t
  unfold iblk
  rw [View.read_apply]
  show V m c main_call0_v0 (((cfg0.win 1).blk t).view.emb (ix3 (0 : Fin 1) r i)) = V m c main_call0_v0 _
  refine congrArg (V m c main_call0_v0) (funext fun a => Fin.ext ?_)
  match a with
  | ⟨0, _⟩ => show win0_1.index t (0 : Fin 3) * 1 + 1 * 0 = t.val / 16; omega
  | ⟨1, _⟩ => show win0_1.index t (1 : Fin 3) * 8192 + 1 * r.val = t.val % 16 * 8192 + r.val; omega
  | ⟨2, _⟩ => show win0_1.index t (2 : Fin 3) * 40 + 1 * i.val = i.val; omega

/-- At the first point of a batch entry the scratch matrix ends at zero plus the point's product. -/
theorem scratch_first (c : Dev nD) (t : Fin cfg0.N) (h0 : t.val % 16 = 0) :
    (outsAt0 m c t.val t.isLt).2 = k0_pay2 (iblk m c 0 t) (iblk m c 1 t) (k0_pay1 (F := Ideal)) := by
  have h1 : ¬t.val % 16 = 15 := by omega
  refine (congrArg Prod.snd (outsAt0_A m c t h0 h1)).trans ?_
  exact Cases.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At every other point it ends at what the point before left plus the point's product. -/
theorem scratch_later (c : Dev nD) (t : Fin cfg0.N) (h0 : ¬t.val % 16 = 0) :
    (outsAt0 m c t.val t.isLt).2 = k0_pay2 (iblk m c 0 t) (iblk m c 1 t)
      (outsAt0 m c (t.val - 1) (Nat.lt_of_le_of_lt (Nat.sub_le _ _) t.isLt)).2 := by
  by_cases h1 : t.val % 16 = 15
  · refine (congrArg Prod.snd (outsAt0_C m c t h0 h1)).trans ?_
    exact Cases.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · refine (congrArg Prod.snd (outsAt0_B m c t h0 h1)).trans ?_
    exact Cases.scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- THE RUNNING SUM: after point n the scratch entry (i, j) is the sum of the shares of tiles 0 … n % 16 of the Gram
    entry of batch entry n / 16. -/
theorem scratch_eq (c : Dev nD) : ∀ (n : ℕ) (h : n < cfg0.N) (i j : Fin 44),
    (outsAt0 m c n h).2 (ix2 i j)
      = ∑ s ∈ Finset.range (n % 16 + 1), tileSum (Vr m c) (Er m c) (batchOf ⟨n, h⟩) i j s
  | 0, h, i, j => by
    refine (congrFun (scratch_first m c ⟨0, h⟩ rfl) (ix2 i j)).trans ?_
    refine (Tile.step_apply (Vr m c) (Er m c) (iblk m c 0 ⟨0, h⟩) (iblk m c 1 ⟨0, h⟩) (batchOf ⟨0, h⟩) (tileOf ⟨0, h⟩)
      (tile0_apply m c ⟨0, h⟩) (tile1_apply m c ⟨0, h⟩) (k0_pay1 (F := Ideal)) i j).trans ?_
    rw [Tile.zero_apply, zero_add]
    show tileSum _ _ _ i j 0 = ∑ s ∈ Finset.range 1, _
    rw [Finset.sum_range_one]
  | n + 1, h, i, j => by
    have hN : n + 1 < 128 := lt128 ⟨n + 1, h⟩
    by_cases h0 : (n + 1) % 16 = 0
    · refine (congrFun (scratch_first m c ⟨n + 1, h⟩ h0) (ix2 i j)).trans ?_
      refine (Tile.step_apply (Vr m c) (Er m c) (iblk m c 0 ⟨n + 1, h⟩) (iblk m c 1 ⟨n + 1, h⟩) (batchOf ⟨n + 1, h⟩)
        (tileOf ⟨n + 1, h⟩) (tile0_apply m c ⟨n + 1, h⟩) (tile1_apply m c ⟨n + 1, h⟩) (k0_pay1 (F := Ideal)) i j).trans ?_
      rw [Tile.zero_apply, zero_add]
      show tileSum _ _ _ i j ((n + 1) % 16) = ∑ s ∈ Finset.range ((n + 1) % 16 + 1), _
      rw [h0, Finset.sum_range_one]
    · have ih := scratch_eq c n (Nat.lt_of_succ_lt h) i j
      have hb : batchOf ⟨n, Nat.lt_of_succ_lt h⟩ = batchOf ⟨n + 1, h⟩ :=
        Fin.ext (by show n / 16 = (n + 1) / 16; omega)
      have hk : n % 16 + 1 = (n + 1) % 16 := by omega
      rw [hb, hk] at ih
      refine (congrFun (scratch_later m c ⟨n + 1, h⟩ h0) (ix2 i j)).trans ?_
      refine (Tile.step_apply (Vr m c) (Er m c) (iblk m c 0 ⟨n + 1, h⟩) (iblk m c 1 ⟨n + 1, h⟩) (batchOf ⟨n + 1, h⟩)
        (tileOf ⟨n + 1, h⟩) (tile0_apply m c ⟨n + 1, h⟩) (tile1_apply m c ⟨n + 1, h⟩) _ i j).trans ?_
      rw [Finset.sum_range_succ]
      exact congrArg (· + tileSum (Vr m c) (Er m c) (batchOf ⟨n + 1, h⟩) i j ((n + 1) % 16)) ih

/-- At the last point of a batch entry the output block holds the batch entry's Gram matrix. -/
theorem block_eq (c : Dev nD) (t : Fin cfg0.N) (h1 : t.val % 16 = 15) (i j : Fin 44) :
    (outsAt0 m c t.val t.isLt).1 (ix3 (0 : Fin 1) i j) = entry (Vr m c) (Er m c) (batchOf t) i j := by
  have h0 : ¬t.val % 16 = 0 := by omega
  have hs : (outsAt0 m c t.val t.isLt).1 = k0_pay3 (outsAt0 m c t.val t.isLt).2 := by
    rw [scratch_later m c t h0]
    refine (congrArg Prod.fst (outsAt0_C m c t h0 h1)).trans ?_
    exact Cases.block_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  rw [hs, Tile.block_apply, scratch_eq m c t.val t.isLt i j, h1]
  exact sum_tileSum (Vr m c) (Er m c) (batchOf t) i j

end Cert.KernelIdeal.Acc

end
-- ==== Proof.Final.lean ====
/-
  The pallas_call's result array is the array of fused Gram matrices.

  The output window's block at grid point t is batch entry t / 16's whole 44 x 44 matrix, written back only after the
  batch entry's last point (t % 16 = 15), when the block holds the batch entry's Gram matrix.  The eight last points
  write the eight batch entries, which are the whole array: it ends holding `gram` of the reshaped inputs.
-/
import proofs.«103243_j24713241821608_2_alg».proof.Proof.Accumulate
import Idealize.ShloMosaic.Lib.Pipeline.Value

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Gram

variable (m : (ℓ : Loc nD τ sig) → Buf (Elt Ideal) ℓ)

/-- The printed index map of the output window, decided over the grid: batch entry t / 16, the whole matrix. -/
theorem index2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- The block a batch entry's last point leaves, at any index of the block: the leading coordinate is 0. -/
theorem block_at (c : Dev nD) (t : Fin cfg0.N) (h1 : t.val % 16 = 15) (z : S1x44x44.Idx) :
    (outsAt0 m c t.val t.isLt).1 z = entry (Vr m c) (Er m c) (batchOf t) (z 1) (z 2) := by
  have hz : z = ix3 (0 : Fin 1) (z 1) (z 2) := funext fun a => by
    match a with
    | ⟨0, _⟩ => exact Fin.ext (by have h : (z 0).val < 1 := (z 0).isLt; show (z 0).val = 0; omega)
    | ⟨1, _⟩ => rfl
    | ⟨2, _⟩ => rfl
  obtain ⟨p, q, rfl⟩ : ∃ (p q : Fin 44), z = ix3 (0 : Fin 1) p q := ⟨z 1, z 2, hz⟩
  exact block_eq m c t h1 p q

/-- An array read through the output window's block at point t, at a block index: the array at the embedded index. -/
theorem read_at (t : Fin cfg0.N) (G : S8x44x44.Idx → EReal) (y : ((cfg0.win 2).xblock (cfg0.grid.coords t)).Idx) :
    ((cfg0.win 2).blk t).view.read (Elt Ideal) G y = G (((cfg0.win 2).blk t).view.emb y) := by
  rw [View.read_apply]
  rfl

/-- What a batch entry's last point writes back is its block of the array of Gram matrices. -/
theorem flushed_eq (c : Dev nD) (t : Fin cfg0.N) (hf : (cfg0.win 2).flush t = true) :
    (dats m 0 c).flushed 2 t = ((cfg0.win 2).blk t).view.read (Elt Ideal) (gram (Vr m c) (Er m c)) := by
  have h1 : t.val % 16 = 15 := (flush0_2 t).mp hf
  obtain ⟨e0, e1, e2⟩ := index2 t
  show (cfg0.win 2).cut (grid0.coords t) ((dats m 0 c).after 2 t) = _
  rw [after0_2]
  funext y
  refine Eq.trans ?_ (read_at t (gram (Vr m c) (Er m c)) y).symm
  have hy0 : (y 0).val < 1 := (y 0).isLt
  refine (block_at m c t h1 ((cfg0.win 2).xinj (grid0.coords t) y)).trans ?_
  refine (gram_of_coords (Vr m c) (Er m c) (((cfg0.win 2).blk t).view.emb y) (batchOf t) _ _ ?_ ?_ ?_).symm
  · show win0_2.index t (0 : Fin 3) * 1 + 1 * (y 0).val = t.val / 16; omega
  · show win0_2.index t (1 : Fin 3) * 44 + 1 * (y 1).val = (y 1).val; omega
  · show win0_2.index t (2 : Fin 3) * 44 + 1 * (y 2).val = (y 2).val; omega

/-- An index of the array is in point t's block iff each coordinate is in the block's range on its axis. -/
theorem mem_blk (t : Fin cfg0.N) (i : S8x44x44.Idx) :
    i ∈ ((cfg0.win 2).blk t).view.set ↔ ∀ a : Fin 3, win0_2.index t a * S1x44x44.size a ≤ (i a).val
      ∧ (i a).val < win0_2.index t a * S1x44x44.size a + S1x44x44.size a := by
  show i ∈ ((View.whole main_call0_v2).slice (win0_2.rect t)).set ↔ _
  rw [View.set_slice_whole, Rect.mem_set_unit]
  exact Iff.rfl

/-- Every index of the array lies in the block of its batch entry's last point. -/
theorem covered (i : S8x44x44.Idx) :
    ∃ t : Fin cfg0.N, (cfg0.win 2).flush t = true ∧ i ∈ ((cfg0.win 2).blk t).view.set := by
  have hb : (i 0).val < 8 := (i 0).isLt
  have h1 : (i 1).val < 44 := (i 1).isLt
  have h2 : (i 2).val < 44 := (i 2).isLt
  have hN : cfg0.N = 128 := N_0
  have ht : (i 0).val * 16 + 15 < cfg0.N := by rw [hN]; omega
  obtain ⟨e0, e1, e2⟩ := index2 ⟨(i 0).val * 16 + 15, ht⟩
  have tv : (⟨(i 0).val * 16 + 15, ht⟩ : Fin cfg0.N).val = (i 0).val * 16 + 15 := rfl
  rw [tv] at e0
  refine ⟨⟨(i 0).val * 16 + 15, ht⟩, (flush0_2 _).mpr (by rw [tv]; omega), ?_⟩
  rw [mem_blk]
  intro a
  match a with
  | ⟨0, _⟩ =>
    show win0_2.index ⟨(i 0).val * 16 + 15, ht⟩ (0 : Fin 3) * 1 ≤ (i 0).val
      ∧ (i 0).val < win0_2.index ⟨(i 0).val * 16 + 15, ht⟩ (0 : Fin 3) * 1 + 1
    omega
  | ⟨1, _⟩ =>
    show win0_2.index ⟨(i 0).val * 16 + 15, ht⟩ (1 : Fin 3) * 44 ≤ (i 1).val
      ∧ (i 1).val < win0_2.index ⟨(i 0).val * 16 + 15, ht⟩ (1 : Fin 3) * 44 + 44
    omega
  | ⟨2, _⟩ =>
    show win0_2.index ⟨(i 0).val * 16 + 15, ht⟩ (2 : Fin 3) * 44 ≤ (i 2).val
      ∧ (i 2).val < win0_2.index ⟨(i 0).val * 16 + 15, ht⟩ (2 : Fin 3) * 44 + 44
    omega

/-- THE RESULT ARRAY of the pallas_call after the run: the fused Gram matrices of the reshaped inputs. -/
theorem final (c : Dev nD) : (dats m 0 c).arrAt 2 cfg0.N = gram (Vr m c) (Er m c) :=
  (dats m 0 c).arrAt_eq_of_cover 2 (gram (Vr m c) (Er m c)) (fun t hf => flushed_eq m c t hf) covered

end Cert.KernelIdeal.Acc

end
-- ==== Proof.GramCorners.lean ====
/-
  The three corner blocks of the fused Gram matrix.

  Columns below 4 of the slab [V | E] are the assignments and columns from 4 on the embeddings, so
    rows and columns below 4         sum over n of V[n, i] * V[n, j]      (V^T V),
    rows below 4, columns from 4 on   sum over n of V[n, i] * E[n, j]      (V^T E),
    rows and columns from 4 on        sum over n of E[n, i] * E[n, j]      (E^T E).
-/
import proofs.«103243_j24713241821608_2_alg».proof.Proof.Gram

noncomputable section

namespace Cert.Gram

open Idealize.ShloMosaic Idealize.ShloMosaic.ValueIdx
open scoped BigOperators

variable (V : SV.Idx → EReal) (E : SE.Idx → EReal)

/-- Column i of the assignments, as a column of the slab. -/
def lo (i : Fin 4) : Fin 44 := ⟨i.val, by omega⟩
/-- Column j of the embeddings, as a column of the slab. -/
def hi (j : Fin 40) : Fin 44 := ⟨j.val + 4, by omega⟩

theorem slab_lo (b : Fin 8) (n : Fin 131072) (i : Fin 4) : slab V E b n (lo i) = V (ix3 b n i) :=
  slab_lt V E b n (lo i) i.isLt

theorem slab_hi (b : Fin 8) (n : Fin 131072) (j : Fin 40) : slab V E b n (hi j) = E (ix3 b n j) := by
  rw [slab_ge V E b n (hi j) (by show ¬ j.val + 4 < 4; omega)]
  exact congrArg (fun q : Fin 40 => E (ix3 b n q)) (Fin.ext (by show j.val + 4 - 4 = j.val; omega))

theorem entry_lo_lo (b : Fin 8) (i j : Fin 4) :
    entry V E b (lo i) (lo j) = ∑ n : Fin 131072, V (ix3 b n i) * V (ix3 b n j) :=
  Finset.sum_congr rfl fun n _ => by unfold term; rw [slab_lo, slab_lo]

theorem entry_lo_hi (b : Fin 8) (i : Fin 4) (j : Fin 40) :
    entry V E b (lo i) (hi j) = ∑ n : Fin 131072, V (ix3 b n i) * E (ix3 b n j) :=
  Finset.sum_congr rfl fun n _ => by unfold term; rw [slab_lo, slab_hi]

theorem entry_hi_hi (b : Fin 8) (i j : Fin 40) :
    entry V E b (hi i) (hi j) = ∑ n : Fin 131072, E (ix3 b n i) * E (ix3 b n j) :=
  Finset.sum_congr rfl fun n _ => by unfold term; rw [slab_hi, slab_hi]

end Cert.Gram

end
-- ==== Proof.Corners.lean ====
/-
  The reference's three products are the corner blocks of the fused Gram matrix.

  The reference contracts the reshaped assignments V and embeddings E over the row axis, batch entry by batch entry:
  V^T V, V^T E and E^T E.  Entry by entry these are the sums over the rows of the products of two columns — the corner
  blocks of the Gram matrix of the slab [V | E].
-/
import proofs.«103243_j24713241821608_2_alg».proof.Proof.Gen.ReferenceIdeal.Read
import proofs.«103243_j24713241821608_2_alg».proof.Proof.GramCorners

noncomputable section

namespace Cert.ReferenceIdeal.Corners

open Idealize.ShloMosaic Idealize.ShloMosaic.ValueIdx Cert.ReferenceIdeal Cert.ReferenceIdeal.Read Cert.Gram
open scoped BigOperators

variable (x0 : (⟨S8x256x512x40, .f32⟩ : BufTy).Contents (Elt Ideal)) (x1 : (⟨S8x256x512x4, .f32⟩ : BufTy).Contents (Elt Ideal))

/-- The reshaped assignments and embeddings, as the reference computes them. -/
abbrev Vx : SV.Idx → EReal := val_main_v1 (F := Ideal) x1
abbrev Ex : SE.Idx → EReal := val_main_v0 (F := Ideal) x0

/-- V^T V at (b, i, j) is the Gram entry (i, j) of batch entry b. -/
theorem vtv (b : Fin 8) (i j : Fin 4) :
    val_main_v2 (F := Ideal) x1 (ix3 b i j) = entry (Vx x1) (Ex x0) b (lo i) (lo j) := by
  rw [val_main_v2_apply, entry_lo_lo]
  refine Finset.sum_congr rfl fun n _ => ?_
  have el : lidx_main_v2 (ix3 b i j) n = ix3 b n i := funext fun a => by
    match a with
    | ⟨0, _⟩ => rfl
    | ⟨1, _⟩ => rfl
    | ⟨2, _⟩ => rfl
  have er : ridx_main_v2 (ix3 b i j) n = ix3 b n j := funext fun a => by
    match a with
    | ⟨0, _⟩ => rfl
    | ⟨1, _⟩ => rfl
    | ⟨2, _⟩ => rfl
  rw [el, er]

/-- V^T E at (b, i, j) is the Gram entry (i, 4 + j). -/
theorem vte (b : Fin 8) (i : Fin 4) (j : Fin 40) :
    val_main_v3 (F := Ideal) x0 x1 (ix3 b i j) = entry (Vx x1) (Ex x0) b (lo i) (hi j) := by
  rw [val_main_v3_apply, entry_lo_hi]
  refine Finset.sum_congr rfl fun n _ => ?_
  have el : lidx_main_v3 (ix3 b i j) n = ix3 b n i := funext fun a => by
    match a with
    | ⟨0, _⟩ => rfl
    | ⟨1, _⟩ => rfl
    | ⟨2, _⟩ => rfl
  have er : ridx_main_v3 (ix3 b i j) n = ix3 b n j := funext fun a => by
    match a with
    | ⟨0, _⟩ => rfl
    | ⟨1, _⟩ => rfl
    | ⟨2, _⟩ => rfl
  rw [el, er]

/-- E^T E at (b, i, j) is the Gram entry (4 + i, 4 + j). -/
theorem ete (b : Fin 8) (i j : Fin 40) :
    val_main_v4 (F := Ideal) x0 (ix3 b i j) = entry (Vx x1) (Ex x0) b (hi i) (hi j) := by
  rw [val_main_v4_apply, entry_hi_hi]
  refine Finset.sum_congr rfl fun n _ => ?_
  have el : lidx_main_v4 (ix3 b i j) n = ix3 b n i := funext fun a => by
    match a with
    | ⟨0, _⟩ => rfl
    | ⟨1, _⟩ => rfl
    | ⟨2, _⟩ => rfl
  have er : ridx_main_v4 (ix3 b i j) n = ix3 b n j := funext fun a => by
    match a with
    | ⟨0, _⟩ => rfl
    | ⟨1, _⟩ => rfl
    | ⟨2, _⟩ => rfl
  rw [el, er]

end Cert.ReferenceIdeal.Corners

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.KernelValue.lean ====
/-
  The kernel's result: the loss computed from the fused Gram matrices is the reference's loss.

  After the pallas_call the program cuts the three corner blocks out of the array of Gram matrices — V^T V, V^T E and
  E^T E, batch entry by batch entry — squares each entrywise, sums each over everything, and forms
      (sum VtV^2 - 2 * sum VtE^2 + sum EtE^2) / 2^20.
  The reference does exactly this arithmetic to its own three products, and those products are the corner blocks
  (Corners.lean); before the call both programs reshape the two inputs the same way.  So the kernel's result is the
  reference's final stage applied to the same inputs — equal as extended reals with no condition on the entries: the
  two sides differ only in how one sum of 131072 products is grouped.
-/
import proofs.«103243_j24713241821608_2_alg».proof.Proof.Final
import proofs.«103243_j24713241821608_2_alg».proof.Proof.Corners
import proofs.«103243_j24713241821608_2_alg».proof.Proof.LibTypedRefCasts
import Idealize.ShloMosaic.Lib.StableHlo.Run
import Idealize.ShloMosaic.Lib.Pipeline.Value

noncomputable section

namespace Cert.KernelIdeal.Loss

open Idealize.ShloMosaic Idealize.ShloMosaic.TcCoe Idealize.ShloMosaic.ValueIdx Idealize.SL.Sem
open Idealize.ShloMosaic.Pipeline (Dat)
open Cert.KernelIdeal Cert.KernelIdeal.Gen Cert.Gram Cert.KernelIdeal.Acc

/-- The arithmetic after the pallas_call, as one function of the array of Gram matrices. -/
def closing (G : S8x44x44.Idx → EReal) : S_.Idx → EReal :=
  Host.divf (F := Ideal)
    (addf
      (subf
        (Host.reduceAdd (F := Ideal)
          (mulf (extractStridedSlice S8x4x4 ![0, 0, 0] G slices_S8x44x44_S8x4x4_0_0_0)
            (extractStridedSlice S8x4x4 ![0, 0, 0] G slices_S8x44x44_S8x4x4_0_0_0))
          (constant (F := Ideal) S_ .f32 0x00000000#32) reducesTo_S8x4x4_S_d0_1_2 h_S_)
        (mulf (constant (F := Ideal) S_ .f32 0x40000000#32)
          (Host.reduceAdd (F := Ideal)
            (mulf (extractStridedSlice S8x4x40 ![0, 0, 4] G slices_S8x44x44_S8x4x40_0_0_4)
              (extractStridedSlice S8x4x40 ![0, 0, 4] G slices_S8x44x44_S8x4x40_0_0_4))
            (constant (F := Ideal) S_ .f32 0x00000000#32) reducesTo_S8x4x40_S_d0_1_2 h_S_)))
      (Host.reduceAdd (F := Ideal)
        (mulf (extractStridedSlice S8x40x40 ![0, 4, 4] G slices_S8x44x44_S8x40x40_0_4_4)
          (extractStridedSlice S8x40x40 ![0, 4, 4] G slices_S8x44x44_S8x40x40_0_4_4))
        (constant (F := Ideal) S_ .f32 0x00000000#32) reducesTo_S8x40x40_S_d0_1_2 h_S_))
    (constant (F := Ideal) S_ .f32 0x49800000#32)

/-- The host lines after the call compute `closing` of the call's result array, whatever the other buffers hold. -/
theorem tail_eq (W : Valuation τ sig (Elt Ideal)) :
    StableHlo.after hostOps1 W (Proc.devRef .tc main_v0) = closing (W (Proc.devRef .tc main_call0_v2)) := by
  after_results
  simp only [Cert.Lib.TypedRefCasts.ofBuf_toBuf]
  rfl

variable (x0 : (⟨Cert.ReferenceIdeal.S8x256x512x40, .f32⟩ : BufTy).Contents (Elt Ideal))
  (x1 : (⟨Cert.ReferenceIdeal.S8x256x512x4, .f32⟩ : BufTy).Contents (Elt Ideal))

open Cert.ReferenceIdeal.Read in
/-- The corner of rows and columns below 4 is the reference's V^T V. -/
theorem corner_vtv :
    extractStridedSlice S8x4x4 ![0, 0, 0] (gram (val_main_v1 (F := Ideal) x1) (val_main_v0 (F := Ideal) x0))
      slices_S8x44x44_S8x4x4_0_0_0 = val_main_v2 (F := Ideal) x1 := by
  funext y
  obtain ⟨b, i, j, rfl⟩ : ∃ (b : Fin 8) (i j : Fin 4), y = ix3 b i j := ⟨y 0, y 1, y 2, eq_ix3 y⟩
  refine (extractStridedSlice_apply _ _ _ (ix3 b i j) (ix3 b (lo i) (lo j)) fun a => ?_).trans
    ((gram_apply _ _ b (lo i) (lo j)).trans (Cert.ReferenceIdeal.Corners.vtv x0 x1 b i j).symm)
  match a with
  | ⟨0, _⟩ => show b.val = 0 + b.val; omega
  | ⟨1, _⟩ => show i.val = 0 + i.val; omega
  | ⟨2, _⟩ => show j.val = 0 + j.val; omega

open Cert.ReferenceIdeal.Read in
/-- The corner of rows below 4 and columns from 4 on is the reference's V^T E. -/
theorem corner_vte :
    extractStridedSlice S8x4x40 ![0, 0, 4] (gram (val_main_v1 (F := Ideal) x1) (val_main_v0 (F := Ideal) x0))
      slices_S8x44x44_S8x4x40_0_0_4 = val_main_v3 (F := Ideal) x0 x1 := by
  funext y
  obtain ⟨b, i, j, rfl⟩ : ∃ (b : Fin 8) (i : Fin 4) (j : Fin 40), y = ix3 b i j := ⟨y 0, y 1, y 2, eq_ix3 y⟩
  refine (extractStridedSlice_apply _ _ _ (ix3 b i j) (ix3 b (lo i) (hi j)) fun a => ?_).trans
    ((gram_apply _ _ b (lo i) (hi j)).trans (Cert.ReferenceIdeal.Corners.vte x0 x1 b i j).symm)
  match a with
  | ⟨0, _⟩ => show b.val = 0 + b.val; omega
  | ⟨1, _⟩ => show i.val = 0 + i.val; omega
  | ⟨2, _⟩ => show j.val + 4 = 4 + j.val; omega

open Cert.ReferenceIdeal.Read in
/-- The corner of rows and columns from 4 on is the reference's E^T E. -/
theorem corner_ete :
    extractStridedSlice S8x40x40 ![0, 4, 4] (gram (val_main_v1 (F := Ideal) x1) (val_main_v0 (F := Ideal) x0))
      slices_S8x44x44_S8x40x40_0_4_4 = val_main_v4 (F := Ideal) x0 := by
  funext y
  obtain ⟨b, i, j, rfl⟩ : ∃ (b : Fin 8) (i j : Fin 40), y = ix3 b i j := ⟨y 0, y 1, y 2, eq_ix3 y⟩
  refine (extractStridedSlice_apply _ _ _ (ix3 b i j) (ix3 b (hi i) (hi j)) fun a => ?_).trans
    ((gram_apply _ _ b (hi i) (hi j)).trans (Cert.ReferenceIdeal.Corners.ete x0 x1 b i j).symm)
  match a with
  | ⟨0, _⟩ => show b.val = 0 + b.val; omega
  | ⟨1, _⟩ => show i.val + 4 = 4 + i.val; omega
  | ⟨2, _⟩ => show j.val + 4 = 4 + j.val; omega

open Cert.ReferenceIdeal.Read in
/-- The closing arithmetic of the Gram matrices of the reference's reshaped inputs is the reference's last stage. -/
theorem closing_gram :
    closing (gram (val_main_v1 (F := Ideal) x1) (val_main_v0 (F := Ideal) x0)) = val_main_v14 (F := Ideal) x0 x1 := by
  unfold closing
  rw [corner_vtv x0 x1, corner_vte x0 x1, corner_ete x0 x1]
  rfl

variable (m : (ℓ : Loc nD τ sig) → Buf (Elt Ideal) ℓ) (ρ : Dev nD → PrngReg)

/-- Before the call both programs reshape the assignments alike, -/
theorem Vr_eq (c : Dev nD) : Vr m c = Cert.ReferenceIdeal.Read.val_main_v1 (F := Ideal) (m ((c : Thread nD τ).loc main_arg1)) := by
  show StableHlo.after hostOps0 (fun b => m (c, b)) (Proc.devRef .tc main_call0_v1) = _
  after_results
  rfl

/-- and the embeddings. -/
theorem Er_eq (c : Dev nD) : Er m c = Cert.ReferenceIdeal.Read.val_main_v0 (F := Ideal) (m ((c : Thread nD τ).loc main_arg0)) := by
  show StableHlo.after hostOps0 (fun b => m (c, b)) (Proc.devRef .tc main_call0_v0) = _
  after_results
  rfl

/-- THE KERNEL'S RESULT is the reference's last stage of the same two inputs. -/
theorem result_eq (c : Dev nD) :
    Pipeline.afterTail₀ cfgs (dats m) 0 (V0 m) [hostOps1] c main_v0
      = Cert.ReferenceIdeal.Read.val_main_v14 (F := Ideal) (m ((c : Thread nD τ).loc main_arg0)) (m ((c : Thread nD τ).loc main_arg1)) := by
  unfold Pipeline.afterTail₀
  show StableHlo.after hostOps1 _ (Proc.devRef .tc main_v0) = _
  rw [tail_eq]
  have hG : Pipeline.withArrays (cfgs 0).spec c (V0 m c) (fun w => (dats m 0 c).arrAt w (cfgs 0).N)
      (Proc.devRef .tc main_call0_v2) = gram (Vr m c) (Er m c) :=
    (Pipeline.withArrays_arr spec0 launch0.win.arr_inj c _ _ 2).trans (final m c)
  rw [hG, Vr_eq, Er_eq]
  exact closing_gram _ _

/-- The run, read: the result at the reference's last stage of the inputs, the inputs unchanged. -/
theorem run : θ_run defs (onTc (τ := τ) (main (F := Ideal))) ⟨m, fun _ => 0, ρ⟩ fun r => ∀ c : Dev nD,
      r.2.mem ((c : Thread nD τ).loc main_v0)
        = Cert.ReferenceIdeal.Read.val_main_v14 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Loss

end
-- ==== Proof.lean ====
/-
  A deep-clustering loss through one fused Gram matrix, against three separate products.

  The inputs are embeddings E of 8 batch entries, 131072 rows of 40, and assignments V, the same rows of 4 (both given
  with the row axis split 256 x 512 and reshaped).  The loss is
      ( sum (V^T V)^2  -  2 * sum (V^T E)^2  +  sum (E^T E)^2 ) / 2^20,
  the products taken per batch entry, the squares entrywise, the sums over every entry.

  The reference forms V^T V, V^T E and E^T E by three contractions over the rows.  The kernel lays V and E side by
  side into one slab W = [V | E] of rows of 44 and forms the single Gram matrix W^T W per batch entry: tile by tile of
  8192 rows, sixteen grid points per batch entry adding their tile's product into a scratch matrix that the first of
  them resets and the last copies out.  The three products are then cut out of W^T W as its corner blocks, and the
  same closing arithmetic is applied to them.

  At the exact values the change of float format in front of the kernel's product is the identity, each tile's
  product is the sum over the tile's rows, the sixteen tiles' sums add up to the sum over all 131072 rows (only the
  associativity and commutativity of addition on the extended reals), and a corner block's entry is the sum over the
  rows of the product of two columns of V or E — the reference's contraction, entry by entry.  So both programs end
  at the same term and no condition on the entries is used.

  The frames of the two kernel programs are the generated ones; the reference's frame is its generated run with the
  result dropped; the idealization rewrote nothing.
-/
import proofs.«103243_j24713241821608_2_alg».proof.Defs
import proofs.«103243_j24713241821608_2_alg».proof.Proof.Gen.Kernel
import proofs.«103243_j24713241821608_2_alg».proof.Proof.Gen.Kernel.Skeleton
import proofs.«103243_j24713241821608_2_alg».proof.Proof.Gen.Kernel.Launch
import proofs.«103243_j24713241821608_2_alg».proof.Proof.Gen.Kernel.Points
import proofs.«103243_j24713241821608_2_alg».proof.Proof.Gen.Kernel.Frame
import proofs.«103243_j24713241821608_2_alg».proof.Proof.Gen.KernelIdeal
import proofs.«103243_j24713241821608_2_alg».proof.Proof.Gen.KernelIdeal.Skeleton
import proofs.«103243_j24713241821608_2_alg».proof.Proof.Gen.KernelIdeal.Launch
import proofs.«103243_j24713241821608_2_alg».proof.Proof.Gen.KernelIdeal.Points
import proofs.«103243_j24713241821608_2_alg».proof.Proof.Gen.KernelIdeal.Frame
import proofs.«103243_j24713241821608_2_alg».proof.Proof.Gen.ReferenceIdeal
import proofs.«103243_j24713241821608_2_alg».proof.Proof.Gen.ReferenceIdeal.Run
import proofs.«103243_j24713241821608_2_alg».proof.Proof.Gen.ReferenceIdeal.Read
import proofs.«103243_j24713241821608_2_alg».proof.Proof.Gen.Pre_finite_inputs
import proofs.«103243_j24713241821608_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the reference's last stage of the two inputs, which agree. -/
theorem algebraic : Cert.algebraic_KernelIdeal_ReferenceIdeal := by
  intro m ρ m' ρ' _ hagree
  refine ⟨fun c => Cert.ReferenceIdeal.Read.val_main_v14 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Loss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
